-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x4096 : Shape := ⟨3, ![8, 128, 4096]⟩
abbrev S8x2048x4096 : Shape := ⟨3, ![8, 2048, 4096]⟩
abbrev S128x4096 : Shape := ⟨2, ![128, 4096]⟩
abbrev S_ : Shape := ⟨0, ![]⟩

class Facts : Prop where
  bcast_S_S8x128x4096 : S_.BroadcastsInDim S8x128x4096 (![] : Fin 0 → Fin S8x128x4096.rank)
  reducesTo_S8x128x4096_S_d0_1_2 : S8x128x4096.ReducesTo [0, 1, 2] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S128x4096 : S_.BroadcastsInDim S128x4096 (![] : Fin 0 → Fin S128x4096.rank)
  reducesTo_S128x4096_S_d0_1 : S128x4096.ReducesTo [0, 1] S_

variable [Facts]

def fn {F : FTy → Type} [FloatOps F] (main_arg0 : FVec F S8x128x4096 .f32) (main_arg1 : FVec F S8x2048x4096 .f32) (main_arg2 : FVec F S128x4096 .f32) : IVec S_ 1 :=
  let main_v0 : FVec F S8x128x4096 .f32 := Host.absf main_arg0
  let main_cst : FVec F S_ .f32 := constant S_ .f32 0x7F800000#32
  let main_v1 : FVec F S8x128x4096 .f32 := broadcastInDim S8x128x4096 ![] bcast_S_S8x128x4096 main_cst
  let main_v2 : IVec S8x128x4096 1 := cmpf .olt main_v0 main_v1
  let main_c : IVec S_ 1 := constantI S_ 1 1#1
  let main_v3 : IVec S_ 1 := (fun x v => Host.reduce IntOp.andi x v reducesTo_S8x128x4096_S_d0_1_2 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  main_v13
-- ==== Kernel.lean ====
abbrev S8x128x4096 : Shape := ⟨3, ![8, 128, 4096]⟩
abbrev S8x2048x4096 : Shape := ⟨3, ![8, 2048, 4096]⟩
abbrev S128x4096 : Shape := ⟨2, ![128, 4096]⟩
abbrev S4096x128 : Shape := ⟨2, ![4096, 128]⟩
abbrev S1x256x4096 : Shape := ⟨3, ![1, 256, 4096]⟩
abbrev S1x128x4096 : Shape := ⟨3, ![1, 128, 4096]⟩
abbrev S256x4096 : Shape := ⟨2, ![256, 4096]⟩
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128x4096, .f32⟩
  | .hbm, ⟨1, _⟩ => ⟨S8x2048x4096, .f32⟩
  | .hbm, ⟨2, _⟩ => ⟨S128x4096, .f32⟩
  | .hbm, ⟨3, _⟩ => ⟨S4096x128, .f32⟩
  | .hbm, ⟨4, _⟩ => ⟨S4096x128, .bf16⟩
  | .hbm, ⟨5, _⟩ => ⟨S8x128x4096, .bf16⟩
  | .hbm, ⟨6, _⟩ => ⟨S8x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S4096x128, .bf16⟩
  | .local _ .vmem, ⟨3, _⟩ => ⟨S1x128x4096, .bf16⟩
  | .local _ .vmem, ⟨4, _⟩ => ⟨S1x128x4096, .bf16⟩
  | .local _ .vmem, ⟨5, _⟩ => ⟨S1x256x4096, .f32⟩
  | .local _ .vmem, ⟨6, _⟩ => ⟨S1x256x4096, .f32⟩
  | _, _ => ⟨S8x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S128x4096_S4096x128_1_0 : S128x4096.Transposes [1, 0] S4096x128
  bitsLt_bf16_f32 : FTy.bits .bf16 < FTy.bits .f32
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S256x4096_S1x256x4096 : S256x4096.ShapeCasts S1x256x4096
  dot_S256x4096_S4096x128_S256x128_1_0_0_1_n_n_wf : DotDims.WF S256x4096 S4096x128 S256x128 [1] [0] [0] [1] [] []
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x2048x4096.size a
  hwx0_0 : ∀ i : grid0.Coords, EltTy.bits .f32 = 32 ∨ (Rect.block (s := S8x2048x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S8x128x4096.size a
  hwx0_2 : ∀ i : grid0.Coords, EltTy.bits .bf16 = 32 ∨ (Rect.block (s := S8x128x4096) S1x128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x2048x4096.size a
  hwx0_3 : ∀ i : grid0.Coords, EltTy.bits .f32 = 32 ∨ (Rect.block (s := S8x2048x4096) S1x256x4096.size (cc0_transform_3 i) (hinb0_3 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_arg1) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x4096 : Shape := ⟨3, ![8, 128, 4096]⟩
abbrev S8x2048x4096 : Shape := ⟨3, ![8, 2048, 4096]⟩
abbrev S128x4096 : Shape := ⟨2, ![128, 4096]⟩
abbrev S8x2048x128 : Shape := ⟨3, ![8, 2048, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x128x4096, .f32⟩
  | .hbm, ⟨1, _⟩ => ⟨S8x2048x4096, .f32⟩
  | .hbm, ⟨2, _⟩ => ⟨S128x4096, .f32⟩
  | .hbm, ⟨3, _⟩ => ⟨S8x2048x128, .f32⟩
  | .hbm, ⟨4, _⟩ => ⟨S8x2048x4096, .f32⟩
  | .hbm, ⟨5, _⟩ => ⟨S_, .f32⟩
  | .hbm, ⟨6, _⟩ => ⟨S8x2048x4096, .f32⟩
  | .hbm, ⟨7, _⟩ => ⟨S8x2048x4096, .f32⟩
  | _, _ => ⟨S8x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x4096_S128x4096_S8x2048x128_2_1_01_0_n_n_wf : DotDims.WF S8x2048x4096 S128x4096 S8x2048x128 [2] [1] [0, 1] [0] [] []
  dot_S8x2048x128_S8x128x4096_S8x2048x4096_2_1_1_2_0_0_wf : DotDims.WF S8x2048x128 S8x128x4096 S8x2048x4096 [2] [1] [1] [2] [0] [0]

variable [Facts₀]

def dot_S8x2048x4096_S128x4096_S8x2048x128_2_1_01_0_n_n : DotDims S8x2048x4096 S128x4096 S8x2048x128 where
  lhsContracting := [2]
  rhsContracting := [1]
  lhsNonContracting := [0, 1]
  rhsNonContracting := [0]
  lhsBatch := []
  rhsBatch := []
  wf := dot_S8x2048x4096_S128x4096_S8x2048x128_2_1_01_0_n_n_wf
def dot_S8x2048x128_S8x128x4096_S8x2048x4096_2_1_1_2_0_0 : DotDims S8x2048x128 S8x128x4096 S8x2048x4096 where
  lhsContracting := [2]
  rhsContracting := [1]
  lhsNonContracting := [1]
  rhsNonContracting := [2]
  lhsBatch := [0]
  rhsBatch := [0]
  wf := dot_S8x2048x128_S8x128x4096_S8x2048x4096_2_1_1_2_0_0_wf

class Facts : Prop extends Facts₀ where

variable [Facts]
-- ==== Proof.LibMatmul.lean ====
/-
  A plain matrix product read at an index. For a product of an [m, k] by a [k, n] matrix that contracts the
  left operand's axis 1 with the right operand's axis 0 (no batch axes), the entry at (a, b) is the sum over c of
  A[a, c] · B[c, b] — both for the host's dot_general and for the in-kernel matmul into a zero accumulator, at the
  ideal values (extended reals, exact operations; a change of float format is the identity there).
-/
import Idealize.ShloMosaic.Lib.ValueIdx
import Idealize.ShloMosaic.PureOps.Ideal.Laws

namespace Cert.MatProd

open Idealize.ShloMosaic Idealize.ShloMosaic.ValueIdx

variable {m k n : ℕ}

/-- The operand indices of a plain product at output index (a, b) and contraction coordinate c are (a, c) and (c, b). -/
theorem lhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

theorem rhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's dot_general of a plain product, at (a, b): Σ_c A[a, c] · B[c, b]. -/
theorem dotGeneral_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

/-- The in-kernel matmul of a plain product into a zero accumulator, at (a, b): the same sum. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

end Cert.MatProd
-- ==== Proof.BodyValue.lean ====
/-
  What the kernel body stores, read at one entry of its [1, 256, 4096] output block. The body multiplies its
  [256, 4096] tile of x by the resident [4096, 128] matrix (a product into a zero accumulator: a plain sum), multiplies
  that [256, 128] result by the sample's [128, 4096] block of g (again a plain sum) and scales by the word 2. The
  roundings to the narrow float format on the way into each product are identities on the extended reals, and the
  casts between [1, a, b] and [a, b] only drop or add the leading unit coordinate.
-/
import proofs.«142528_j62156766708153_2_alg».proof.Proof.Gen.KernelIdeal.Skeleton
import proofs.«142528_j62156766708153_2_alg».proof.Proof.LibMatmul
import Idealize.ShloMosaic.Lib.ValueIdx
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx

/-- The stored block at (u, p, q): Σ_r ( Σ_k x0[0, p, k] · x1[k, r] ) · x2[0, r, q], times the scale word. -/
theorem pay_apply (x0 : Vec Ideal S1x256x4096 .f32) (x1 : Vec Ideal S4096x128 .bf16) (x2 : Vec Ideal S1x128x4096 .bf16)
    (u : Fin 1) (p : Fin 256) (q : Fin 4096) :
    k0_pay1 (F := Ideal) x0 x1 x2 (ix3 u p q)
      = (∑ r : Fin 128, (∑ k : Fin 4096, x0 (ix3 (0 : Fin 1) p k) * x1 (ix2 k r)) * x2 (ix3 (0 : Fin 1) r q))
          * Ideal.ofBits .f32 0x40000000#32 := by
  unfold k0_pay1
  refine (shapeCast_ab_1ab_apply _ shapeCasts_S256x4096_S1x256x4096 u p q).trans ?_
  refine congrArg (fun z : EReal => z * Ideal.ofBits .f32 0x40000000#32) ?_
  refine (Cert.MatProd.matmul_zero_apply _ none _ _ p q).trans ?_
  refine Finset.sum_congr rfl fun r _ => ?_
  refine congrArg₂ (fun a b : EReal => a * b) ?_ (shapeCast_1ab_ab_apply x2 shapeCasts_S1x128x4096_S128x4096 r q)
  refine (Cert.MatProd.matmul_zero_apply _ none _ _ p r).trans ?_
  refine Finset.sum_congr rfl fun k _ => ?_
  exact congrArg₂ (fun a b : EReal => a * b)
    (shapeCast_1ab_ab_apply x0 shapeCasts_S1x256x4096_S256x4096 p k)
    (congrFun (shapeCast_self x1 shapeCasts_S4096x128_S4096x128) (ix2 k r))

end Cert.KernelIdeal.BodyValue

end
-- ==== Proof.LoraSpec.lean ====
/-
  The low-rank update as ONE function of the three argument arrays, entry by entry, on the extended reals:

      out[b, s, o] = ( Σ_r ( Σ_i x[b, s, i] · W[r, i] ) · g[b, r, o] ) · 2

  x is the [8, 2048, 4096] activation, W the [128, 4096] down-projection (row r is contracted with the features of
  x), g the per-sample [8, 128, 4096] up-projection, and 2 = alpha / r is the float word 0x40000000, kept as a word:
  the same word stands on both sides of the claim and is never evaluated.
-/
import Idealize.ShloMosaic.Lib.ValueIdx
import Idealize.ShloMosaic.PureOps.Ideal

noncomputable section

namespace Cert.Lora

open Idealize.ShloMosaic Idealize.ShloMosaic.ValueIdx

/-- The down-projected activation at (b, s, r): row r of W against the features of x[b, s, ·]. -/
def down (x : FVec Ideal ⟨3, ![8, 2048, 4096]⟩ .f32) (W : FVec Ideal ⟨2, ![128, 4096]⟩ .f32)
    (b : Fin 8) (s : Fin 2048) (r : Fin 128) : EReal :=
  ∑ k : Fin 4096, x (ix3 b s k) * W (ix2 r k)

/-- The result at (b, s, o): the down-projection against column o of sample b's g, times the scale word. -/
def entry (g : FVec Ideal ⟨3, ![8, 128, 4096]⟩ .f32) (x : FVec Ideal ⟨3, ![8, 2048, 4096]⟩ .f32)
    (W : FVec Ideal ⟨2, ![128, 4096]⟩ .f32) (b : Fin 8) (s : Fin 2048) (o : Fin 4096) : EReal :=
  (∑ r : Fin 128, down x W b s r * g (ix3 b r o)) * Ideal.ofBits .f32 0x40000000#32

/-- The whole result array. -/
def out (g : FVec Ideal ⟨3, ![8, 128, 4096]⟩ .f32) (x : FVec Ideal ⟨3, ![8, 2048, 4096]⟩ .f32)
    (W : FVec Ideal ⟨2, ![128, 4096]⟩ .f32) : FVec Ideal ⟨3, ![8, 2048, 4096]⟩ .f32 :=
  fun i => entry g x W (i 0) (i 1) (i 2)

end Cert.Lora

end
-- ==== Proof.PointValue.lean ====
/-
  One grid point's stored block against the specification. Suppose the three blocks the body loads are what the
  windows deliver: x0 is rows s0 … s0 + 255 of sample b of x, x1 is W transposed (entry (k, r) is W[r, k]) and x2 is
  sample b of g. Then the entry (u, p, q) of the stored block is the specification's entry (b, s0 + p, q): the two
  nested sums are the same sums, term by term.
-/
import proofs.«142528_j62156766708153_2_alg».proof.Proof.BodyValue
import proofs.«142528_j62156766708153_2_alg».proof.Proof.LoraSpec

noncomputable section

namespace Cert.KernelIdeal.BodyValue

open Cert.KernelIdeal Cert.KernelIdeal.Gen Idealize.ShloMosaic Idealize.ShloMosaic.ValueIdx

theorem point_eq (g : FVec Ideal S8x128x4096 .f32) (x : FVec Ideal S8x2048x4096 .f32) (W : FVec Ideal S128x4096 .f32)
    (x0 : Vec Ideal S1x256x4096 .f32) (x1 : Vec Ideal S4096x128 .bf16) (x2 : Vec Ideal S1x128x4096 .bf16)
    (b : Fin 8) (s0 : ℕ) (hs : s0 + 256 ≤ 2048)
    (h0 : ∀ (p : Fin 256) (k : Fin 4096),
      x0 (ix3 (0 : Fin 1) p k) = x (ix3 b ⟨s0 + p.val, Nat.lt_of_lt_of_le (Nat.add_lt_add_left p.isLt s0) hs⟩ k))
    (h1 : ∀ (k : Fin 4096) (r : Fin 128), x1 (ix2 k r) = W (ix2 r k))
    (h2 : ∀ (r : Fin 128) (q : Fin 4096), x2 (ix3 (0 : Fin 1) r q) = g (ix3 b r q))
    (u : Fin 1) (p : Fin 256) (q : Fin 4096) :
    k0_pay1 (F := Ideal) x0 x1 x2 (ix3 u p q)
      = Cert.Lora.entry g x W b ⟨s0 + p.val, Nat.lt_of_lt_of_le (Nat.add_lt_add_left p.isLt s0) hs⟩ q := by
  refine (pay_apply x0 x1 x2 u p q).trans ?_
  unfold Cert.Lora.entry Cert.Lora.down
  refine congrArg (fun z : EReal => z * Ideal.ofBits .f32 0x40000000#32) ?_
  refine Finset.sum_congr rfl fun r _ => ?_
  refine congrArg₂ (fun a b : EReal => a * b) ?_ (h2 r q)
  refine Finset.sum_congr rfl fun k _ => ?_
  exact congrArg₂ (fun a b : EReal => a * b) (h0 p k) (h1 k r)

end Cert.KernelIdeal.BodyValue

end
-- ==== Proof.KernelWhole.lean ====
/-
  From the grid's blocks to the whole result array. The grid has 8 × 8 points (sample b, row tile s); point (b, s)
  loads rows 256·s … 256·s + 255 of sample b of x, the whole resident matrix, and sample b of g, and writes back rows
  256·s … 256·s + 255 of sample b of the result. Before the region the host transposes W (so the resident matrix at
  (k, r) is W[r, k]) and rounds it and g to the narrow format, which changes nothing on the extended reals. Hence what
  each point writes back is its block of the specification, the 64 blocks tile the [8, 2048, 4096] result, and the
  array after the run is the specification of the three argument arrays.
-/
import proofs.«142528_j62156766708153_2_alg».proof.Proof.Gen.KernelIdeal.Value
import proofs.«142528_j62156766708153_2_alg».proof.Proof.PointValue
import Idealize.ShloMosaic.Lib.Pipeline.Value
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The result array as one function of the launch contents of the three arguments. -/
abbrev spec (c : Dev nD) : FVec Ideal S8x2048x4096 .f32 :=
  Cert.Lora.out (m ((c : Thread nD τ).loc main_arg0)) (m ((c : Thread nD τ).loc main_arg1)) (m ((c : Thread nD τ).loc main_arg2))

/-! ## What the host leaves for the region -/

/-- The resident matrix: W transposed (then rounded, an identity here). -/
theorem resident_eq (c : Dev nD) : (V m c main_v1 : S4096x128.Idx → EReal)
    = truncf (F := Ideal) .bf16 (transpose S4096x128 [1, 0] (m ((c : Thread nD τ).loc main_arg2) : FVec Ideal S128x4096 .f32)
        transposes_S128x4096_S4096x128_1_0 : FVec Ideal S4096x128 .f32) bitsLt_bf16_f32 := by
  dsimp only [Gen.V, Gen.hostOps0]; after_results

/-- The up-projection the region stages: g rounded, an identity here. -/
theorem staged_g_eq (c : Dev nD) : (V m c main_v2 : S8x128x4096.Idx → EReal)
    = truncf (F := Ideal) .bf16 (m ((c : Thread nD τ).loc main_arg0) : FVec Ideal S8x128x4096 .f32) bitsLt_bf16_f32 := by
  dsimp only [Gen.V, Gen.hostOps0]; after_results

/-! ## The index maps, decided over the 64 points -/

/-- Point t's input blocks sit where its output block says: x's block has the output's sample and row tile, g's
    block the output's sample, the resident matrix is block (0, 0); and the output's block indices are in range. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0
    ∧ win0_1.index t (1 : Fin 2) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 7
    ∧ win0_3.index t (1 : Fin 3) ≤ 7
    ∧ win0_3.index t (2 : Fin 3) = 0 :=
  (by decide +kernel : ∀ t : Fin grid0.N, _)

/-- Every (sample, row tile) pair is some point's output block. -/
theorem idx_onto : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-! ## What each point writes back -/

/-- Point t writes back block t of the specification. -/
theorem flushed_eq (c : Dev nD) (t : Fin cfg0.N) :
    (dats m 0 c).flushed 3 t = ((cfg0.win 3).blk t).view.read (Elt Ideal) (spec m c) := by
  rw [Value.flushed3]
  unfold Gen.out0_3
  rw [View.canon_unit_zero zeros3]
  simp only [View.ld_unit_zero (S := S1x256x4096) zeros3, View.ld_unit_zero (S := S4096x128) zeros2,
    View.ld_unit_zero (S := S1x128x4096) zeros3]
  obtain ⟨e00, e01, e02, e10, e11, e20, e21, e22, e30, e31, e32⟩ := idx_facts t
  have hb : win0_3.index t (0 : Fin 3) < 8 := by omega
  have hs : win0_3.index t (1 : Fin 3) * 256 + 256 ≤ 2048 := by omega
  funext j
  obtain ⟨u, p, q, rfl⟩ : ∃ (u : Fin 1) (p : Fin 256) (q : Fin 4096), j = ix3 u p q := ⟨j 0, j 1, j 2, eq_ix3 j⟩
  have hu : u.val = 0 := by omega
  -- where the output block's entry (u, p, q) sits in the array
  have eo : ((cfg0.win 3).blk t).view.emb (ix3 u p q)
      = ix3 (⟨win0_3.index t (0 : Fin 3), hb⟩ : Fin 8)
          (⟨win0_3.index t (1 : Fin 3) * 256 + p.val, Nat.lt_of_lt_of_le (Nat.add_lt_add_left p.isLt _) hs⟩ : Fin 2048) q := by
    funext a; apply Fin.ext
    match a with
    | ⟨0, _⟩ => show win0_3.index t (0 : Fin 3) * 1 + 1 * u.val = win0_3.index t (0 : Fin 3); omega
    | ⟨1, _⟩ => show win0_3.index t (1 : Fin 3) * 256 + 1 * p.val = win0_3.index t (1 : Fin 3) * 256 + p.val; omega
    | ⟨2, _⟩ => show win0_3.index t (2 : Fin 3) * 4096 + 1 * q.val = q.val; omega
  show k0_pay1 (F := Ideal) (iblk m c 0 t) (iblk m c 1 t) (iblk m c 2 t) (ix3 u p q)
    = spec m c (((cfg0.win 3).blk t).view.emb (ix3 u p q))
  rw [eo]
  show _ = Cert.Lora.entry _ _ _ (⟨win0_3.index t (0 : Fin 3), hb⟩ : Fin 8)
    (⟨win0_3.index t (1 : Fin 3) * 256 + p.val, Nat.lt_of_lt_of_le (Nat.add_lt_add_left p.isLt _) hs⟩ : Fin 2048) q
  refine BodyValue.point_eq _ _ _ _ _ _ ⟨win0_3.index t (0 : Fin 3), hb⟩ (win0_3.index t (1 : Fin 3) * 256) hs ?_ ?_ ?_ u p q
  · -- x's block: rows of the output's tile, of the output's sample
    intro p k
    show V m c main_arg1 (((cfg0.win 0).blk t).view.emb (ix3 (0 : Fin 1) p k)) = _
    rw [V_main_arg1]
    refine congrArg (m ((c : Thread nD τ).loc main_arg1)) ?_
    funext a; apply Fin.ext
    match a with
    | ⟨0, _⟩ => show win0_0.index t (0 : Fin 3) * 1 + 1 * 0 = win0_3.index t (0 : Fin 3); omega
    | ⟨1, _⟩ => show win0_0.index t (1 : Fin 3) * 256 + 1 * p.val = win0_3.index t (1 : Fin 3) * 256 + p.val; omega
    | ⟨2, _⟩ => show win0_0.index t (2 : Fin 3) * 4096 + 1 * k.val = k.val; omega
  · -- the resident matrix: W transposed
    intro k r
    show V m c main_v1 (((cfg0.win 1).blk t).view.emb (ix2 k r)) = _
    have e : ((cfg0.win 1).blk t).view.emb (ix2 k r) = ix2 k r := by
      funext a; apply Fin.ext
      match a with
      | ⟨0, _⟩ => show win0_1.index t (0 : Fin 2) * 4096 + 1 * k.val = k.val; omega
      | ⟨1, _⟩ => show win0_1.index t (1 : Fin 2) * 128 + 1 * r.val = r.val; omega
    refine (congrArg (V m c main_v1) e).trans ?_
    refine (congrFun (resident_eq m c) (ix2 k r)).trans ?_
    exact transpose_ix2_apply _ transposes_S128x4096_S4096x128_1_0 k r
  · -- g's block: the output's sample
    intro r q
    show V m c main_v2 (((cfg0.win 2).blk t).view.emb (ix3 (0 : Fin 1) r q)) = _
    have e : ((cfg0.win 2).blk t).view.emb (ix3 (0 : Fin 1) r q)
        = ix3 (⟨win0_3.index t (0 : Fin 3), hb⟩ : Fin 8) r q := by
      funext a; apply Fin.ext
      match a with
      | ⟨0, _⟩ => show win0_2.index t (0 : Fin 3) * 1 + 1 * 0 = win0_3.index t (0 : Fin 3); omega
      | ⟨1, _⟩ => show win0_2.index t (1 : Fin 3) * 128 + 1 * r.val = r.val; omega
      | ⟨2, _⟩ => show win0_2.index t (2 : Fin 3) * 4096 + 1 * q.val = q.val; omega
    refine (congrArg (V m c main_v2) e).trans ?_
    exact congrFun (staged_g_eq m c) _

/-! ## The blocks tile the array -/

/-- An index of the result is in point t's block iff each coordinate is in the block's range on its axis. -/
theorem mem_blk (t : Fin cfg0.N) (i : S8x2048x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v3).slice (win0_3.rect t)).set ↔ _
  rw [View.set_slice_whole, Rect.mem_set_unit]
  exact Iff.rfl

/-- Every index of the result is in some point's block: sample i₀, row tile i₁ / 256. -/
theorem cover (i : S8x2048x4096.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 4096 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- The result array after the run is the specification. -/
theorem final (c : Dev nD) : (dats m 0 c).arrAt 3 cfg0.N = spec m c :=
  (dats m 0 c).arrAt_eq_of_cover 3 (spec m c) (fun t _ => flushed_eq m c t) cover

/-! ## The run -/

/-- Every weakly fair execution terminates with the result array at the specification and the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefIsSpec.lean ====
/-
  The reference computes the specification. Its two contractions, read at an index, are the two nested sums:
  the first contracts the feature axis of x with the feature axis of W, the second — batched over the sample —
  contracts the rank axis of that result with the rank axis of g; the scale is a scalar word broadcast to the
  whole array and multiplied in. Only the index functions have to be identified with coordinates.
-/
import proofs.«142528_j62156766708153_2_alg».proof.Proof.Gen.ReferenceIdeal.Read
import proofs.«142528_j62156766708153_2_alg».proof.Proof.LoraSpec

noncomputable section

namespace Cert.ReferenceIdeal.RefValue

open Cert.ReferenceIdeal Cert.ReferenceIdeal.Read Idealize.ShloMosaic Idealize.ShloMosaic.ValueIdx

/-- Left operand of the first contraction under the second: x at (b, s, k). -/
theorem lidx0 (i : S8x2048x4096.Idx) (r : Fin 128) (k : Fin 4096) :
    lidx_main_v0 (lidx_main_v1 i r) k = ix3 (i 0) (i 1) k :=
  funext fun a => by match a with | ⟨0, _⟩ => rfl | ⟨1, _⟩ => rfl | ⟨2, _⟩ => rfl

/-- Right operand of the first contraction under the second: W at (r, k). -/
theorem ridx0 (i : S8x2048x4096.Idx) (r : Fin 128) (k : Fin 4096) :
    ridx_main_v0 (lidx_main_v1 i r) k = ix2 r k :=
  funext fun a => by match a with | ⟨0, _⟩ => rfl | ⟨1, _⟩ => rfl

/-- Right operand of the second contraction: g at (b, r, o). -/
theorem ridx1 (i : S8x2048x4096.Idx) (r : Fin 128) :
    ridx_main_v1 i r = ix3 (i 0) r (i 2) :=
  funext fun a => by match a with | ⟨0, _⟩ => rfl | ⟨1, _⟩ => rfl | ⟨2, _⟩ => rfl

/-- The reference's result, as a function of the three arrays, is the specification. -/
theorem ref_eq (g : FVec Ideal S8x128x4096 .f32) (x : FVec Ideal S8x2048x4096 .f32) (W : FVec Ideal S128x4096 .f32) :
    val_main_v3 (F := Ideal) g x W = Cert.Lora.out g x W := by
  funext i
  rw [val_main_v3_apply, val_main_v1_apply, val_main_v2_apply, val_main_cst_apply]
  simp only [val_main_v0_apply, lidx0, ridx0, ridx1]
  rfl

end Cert.ReferenceIdeal.RefValue

end
-- ==== Proof.lean ====
/-
  The certificate of a fused low-rank update: the kernel computes, tile by tile,

      out[b, s, o] = ( Σ_r ( Σ_i x[b, s, i] · W[r, i] ) · g[b, r, o] ) · 2

  as two products inside one grid point (a [256, 4096] tile of x against the resident transposed W, then against
  the sample's block of g), and the reference computes the same array by two whole contractions and a scalar
  multiplication. On the extended reals the roundings to the narrow float format are identities, a product into
  a zero accumulator and the host's contraction are the same plain sum, and the scale is the same float word on
  both sides; the two sides are then the same nested sums term by term, so no finiteness of the inputs is used.
  The three frames are the programs' generated runs (the reference's with its result dropped); the idealization
  rewrote no operation, so it is preserved trivially; the value claim sets the kernel's whole-array run beside
  the reference's run read at an index, both at ONE specification of the three argument arrays.
-/
import proofs.«142528_j62156766708153_2_alg».proof.Defs
import proofs.«142528_j62156766708153_2_alg».proof.Proof.Gen.Kernel
import proofs.«142528_j62156766708153_2_alg».proof.Proof.Gen.Kernel.Skeleton
import proofs.«142528_j62156766708153_2_alg».proof.Proof.Gen.Kernel.Launch
import proofs.«142528_j62156766708153_2_alg».proof.Proof.Gen.Kernel.Points
import proofs.«142528_j62156766708153_2_alg».proof.Proof.Gen.Kernel.Frame
import proofs.«142528_j62156766708153_2_alg».proof.Proof.Gen.KernelIdeal
import proofs.«142528_j62156766708153_2_alg».proof.Proof.Gen.KernelIdeal.Skeleton
import proofs.«142528_j62156766708153_2_alg».proof.Proof.Gen.KernelIdeal.Launch
import proofs.«142528_j62156766708153_2_alg».proof.Proof.Gen.KernelIdeal.Points
import proofs.«142528_j62156766708153_2_alg».proof.Proof.Gen.KernelIdeal.Frame
import proofs.«142528_j62156766708153_2_alg».proof.Proof.Gen.ReferenceIdeal
import proofs.«142528_j62156766708153_2_alg».proof.Proof.Gen.Pre_finite_inputs
import proofs.«142528_j62156766708153_2_alg».proof.Proof.Gen.KernelIdeal.Value
import proofs.«142528_j62156766708153_2_alg».proof.Proof.Gen.ReferenceIdeal.Run
import proofs.«142528_j62156766708153_2_alg».proof.Proof.Gen.ReferenceIdeal.Read
import proofs.«142528_j62156766708153_2_alg».proof.Proof.KernelWhole
import proofs.«142528_j62156766708153_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is five host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x, W and g both programs end with the result array at the specification of those
    arrays: the kernel's 64 blocks tile it, and the reference's two contractions and its scaling, read at an index,
    are its two nested sums and its factor. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
